-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096x128 : Shape := ⟨4, ![4, 32, 4096, 128]⟩
abbrev S_ : Shape := ⟨0, ![]⟩

class Facts : Prop where
  bcast_S_S4x32x4096x128 : S_.BroadcastsInDim S4x32x4096x128 (![] : Fin 0 → Fin S4x32x4096x128.rank)
  reducesTo_S4x32x4096x128_S_d0_1_2_3 : S4x32x4096x128.ReducesTo [0, 1, 2, 3] S_
  h_S_ : 0 < S_.numel

variable [Facts]

def fn {F : FTy → Type} [FloatOps F] (main_arg0 : FVec F S4x32x4096x128 .f32) : IVec S_ 1 :=
  let main_v0 : FVec F S4x32x4096x128 .f32 := Host.absf main_arg0
  let main_cst : FVec F S_ .f32 := constant S_ .f32 0x7F800000#32
  let main_v1 : FVec F S4x32x4096x128 .f32 := broadcastInDim S4x32x4096x128 ![] bcast_S_S4x32x4096x128 main_cst
  let main_v2 : IVec S4x32x4096x128 1 := cmpf .olt main_v0 main_v1
  let main_c : IVec S_ 1 := constantI S_ 1 1#1
  let main_v3 : IVec S_ 1 := (fun x v => Host.reduce IntOp.andi x v reducesTo_S4x32x4096x128_S_d0_1_2_3 h_S_) main_v2 main_c
  main_v3
-- ==== Kernel.lean ====
abbrev S4x32x4096x128 : Shape := ⟨4, ![4, 32, 4096, 128]⟩
abbrev S524288x128 : Shape := ⟨2, ![524288, 128]⟩
abbrev S8192x128 : Shape := ⟨2, ![8192, 128]⟩
abbrev S8192 : Shape := ⟨1, ![8192]⟩
abbrev S8192x1 : Shape := ⟨2, ![8192, 1]⟩

abbrev nBuf : Space → Nat
  | .hbm => 4
  | .vmem => 4
  | .smem => 0
  | _ => 0

abbrev bufTy : (tb : Table) → Fin (tcTables nBuf tb) → BufTy
  | .hbm, ⟨0, _⟩ => ⟨S4x32x4096x128, .f32⟩
  | .hbm, ⟨1, _⟩ => ⟨S524288x128, .f32⟩
  | .hbm, ⟨2, _⟩ => ⟨S524288x128, .f32⟩
  | .hbm, ⟨3, _⟩ => ⟨S4x32x4096x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S4x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x32x4096x128_S524288x128 : S4x32x4096x128.ShapeCasts S524288x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  broadcasts_S8192x1_S8192x128 : S8192x1.Broadcasts S8192x128
  shapeCasts_S524288x128_S4x32x4096x128 : S524288x128.ShapeCasts S4x32x4096x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x32x4096x128 : Shape := ⟨4, ![4, 32, 4096, 128]⟩
abbrev S4x32x4096x1x128 : Shape := ⟨5, ![4, 32, 4096, 1, 128]⟩
abbrev S_ : Shape := ⟨0, ![]⟩
abbrev S4x32x4096x1 : Shape := ⟨4, ![4, 32, 4096, 1]⟩
abbrev S4x32x4096x1x1 : Shape := ⟨5, ![4, 32, 4096, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S4x32x4096x1x128, .f32⟩
  | .hbm, ⟨2, _⟩ => ⟨S_, .f32⟩
  | .hbm, ⟨3, _⟩ => ⟨S4x32x4096x1, .f32⟩
  | .hbm, ⟨4, _⟩ => ⟨S4x32x4096x1x1, .f32⟩
  | .hbm, ⟨5, _⟩ => ⟨S_, .f32⟩
  | .hbm, ⟨6, _⟩ => ⟨S4x32x4096x1x1, .f32⟩
  | .hbm, ⟨7, _⟩ => ⟨S4x32x4096x1x1, .f32⟩
  | .hbm, ⟨8, _⟩ => ⟨S_, .f32⟩
  | .hbm, ⟨9, _⟩ => ⟨S4x32x4096x1, .f32⟩
  | .hbm, ⟨10, _⟩ => ⟨S4x32x4096x1x1, .f32⟩
  | .hbm, ⟨11, _⟩ => ⟨S_, .f32⟩
  | .hbm, ⟨12, _⟩ => ⟨S4x32x4096x1x1, .f32⟩
  | .hbm, ⟨13, _⟩ => ⟨S4x32x4096x1x1, .f32⟩
  | .hbm, ⟨14, _⟩ => ⟨S4x32x4096x1x1, .f32⟩
  | .hbm, ⟨15, _⟩ => ⟨S_, .f32⟩
  | .hbm, ⟨16, _⟩ => ⟨S4x32x4096x1x1, .f32⟩
  | .hbm, ⟨17, _⟩ => ⟨S4x32x4096x1x1, .f32⟩
  | .hbm, ⟨18, _⟩ => ⟨S_, .f32⟩
  | .hbm, ⟨19, _⟩ => ⟨S4x32x4096x1x1, .f32⟩
  | .hbm, ⟨20, _⟩ => ⟨S4x32x4096x1x1, .f32⟩
  | .hbm, ⟨21, _⟩ => ⟨S4x32x4096x1x1, .f32⟩
  | .hbm, ⟨22, _⟩ => ⟨S4x32x4096x1x1, .f32⟩
  | .hbm, ⟨23, _⟩ => ⟨S4x32x4096x1x1, .f32⟩
  | .hbm, ⟨24, _⟩ => ⟨S4x32x4096x1x128, .f32⟩
  | .hbm, ⟨25, _⟩ => ⟨S4x32x4096x1x128, .f32⟩
  | .hbm, ⟨26, _⟩ => ⟨S4x32x4096x1x128, .f32⟩
  | .hbm, ⟨27, _⟩ => ⟨S4x32x4096x1x128, .f32⟩
  | .hbm, ⟨28, _⟩ => ⟨S4x32x4096x1x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x32x4096x1x128, .f32⟩
  | .hbm, ⟨33, _⟩ => ⟨S4x32x4096x1x128, .f32⟩
  | .hbm, ⟨34, _⟩ => ⟨S_, .f32⟩
  | .hbm, ⟨35, _⟩ => ⟨S4x32x4096x1x128, .f32⟩
  | .hbm, ⟨36, _⟩ => ⟨S4x32x4096x1x128, .f32⟩
  | .hbm, ⟨37, _⟩ => ⟨S4x32x4096x1x128, .f32⟩
  | .hbm, ⟨38, _⟩ => ⟨S4x32x4096x1x128, .f32⟩
  | .hbm, ⟨39, _⟩ => ⟨S4x32x4096x1x128, .f32⟩
  | .hbm, ⟨40, _⟩ => ⟨S4x32x4096x1x128, .f32⟩
  | .hbm, ⟨41, _⟩ => ⟨S4x32x4096x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_cst_6 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  shapeCasts_S4x32x4096x128_S4x32x4096x1x128 : S4x32x4096x128.ShapeCasts S4x32x4096x1x128
  reducesTo_S4x32x4096x1x128_S4x32x4096x1_d4 : S4x32x4096x1x128.ReducesTo [4] S4x32x4096x1
  h_S_ : 0 < S_.numel
  bcast_S4x32x4096x1_S4x32x4096x1x1_0_1_2_3 : S4x32x4096x1.BroadcastsInDim S4x32x4096x1x1 (![0, 1, 2, 3] : Fin 4 → Fin S4x32x4096x1x1.rank)
  bcast_S_S4x32x4096x1x1 : S_.BroadcastsInDim S4x32x4096x1x1 (![] : Fin 0 → Fin S4x32x4096x1x1.rank)
  bcast_S4x32x4096x1x1_S4x32x4096x1x128_0_1_2_3_4 : S4x32x4096x1x1.BroadcastsInDim S4x32x4096x1x128 (![0, 1, 2, 3, 4] : Fin 5 → Fin S4x32x4096x1x128.rank)
  bcast_S_S4x32x4096x1x128 : S_.BroadcastsInDim S4x32x4096x1x128 (![] : Fin 0 → Fin S4x32x4096x1x128.rank)
  shapeCasts_S4x32x4096x1x128_S4x32x4096x128 : S4x32x4096x1x128.ShapeCasts S4x32x4096x128

variable [Facts₀]

class Facts : Prop extends Facts₀ where

variable [Facts]
-- ==== Proof.Spec.lean ====
/-
  The specification. A row of 128 numbers is quantized to 4 bits against its own minimum and maximum and
  immediately dequantized:
      scale  = max ((max_row · 1 − min_row · 1) / 15, ε)
      offset = round (−(min_row · 1) / scale)                      (to nearest, ties to even)
      out    = (min (15, max (0, round (v / scale) + offset)) − offset) · scale
  for each entry v of the row. The maximum is folded from −∞ and the minimum from +∞ over the 128 columns.
  The numbers 1, 15, ε and 0 are kept as the f32 words both programs carry; none of them is ever evaluated except
  the zero word.  Every operation is the exact one on the extended reals, so the function is total: nothing here
  assumes the entries finite.

  Two whole-array functions are read off it: over the [524288, 128] view (one row per group) and over the
  [4, 32, 4096, 128] array (the row of an entry is the entries sharing its first three coordinates).
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx

/-- The largest entry of a row, folded from −∞. -/
def rowMax (row : Fin 128 → EReal) : EReal :=
  (Finset.univ : Finset (Fin 128)).fold max (Ideal.ofBits .f32 0xFF800000#32) row

/-- The smallest entry of a row, folded from +∞. -/
def rowMin (row : Fin 128 → EReal) : EReal :=
  (Finset.univ : Finset (Fin 128)).fold min (Ideal.ofBits .f32 0x7F800000#32) row

/-- The quantization step of a row: a fifteenth of its range, but at least ε. -/
def scale (row : Fin 128 → EReal) : EReal :=
  max (Ideal.div (rowMax row * Ideal.ofBits .f32 0x3F800000#32 - rowMin row * Ideal.ofBits .f32 0x3F800000#32)
        (Ideal.ofBits .f32 0x41700000#32))
    (Ideal.ofBits .f32 0x322BCC77#32)

/-- The zero point of a row: the negated minimum in steps, rounded to nearest even. -/
def offset (row : Fin 128 → EReal) : EReal :=
  Ideal.liftRound Ideal.roundHalfEven (Ideal.div (-(rowMin row * Ideal.ofBits .f32 0x3F800000#32)) (scale row))

/-- One entry `v` quantized against its row and dequantized. -/
def qd (row : Fin 128 → EReal) (v : EReal) : EReal :=
  (min (Ideal.ofBits .f32 0x41700000#32)
      (max (Ideal.ofBits .f32 0x00000000#32)
        (Ideal.liftRound Ideal.roundHalfEven (Ideal.div v (scale row)) + offset row))
    - offset row) * scale row

/-- The result over the [524288, 128] view: entry (r, q) against row r. -/
def G2 (A : (⟨2, ![524288, 128]⟩ : Shape).Idx → EReal) : (⟨2, ![524288, 128]⟩ : Shape).Idx → EReal :=
  fun j => qd (fun k : Fin 128 => A (ix2 (j 0 : Fin 524288) k)) (A j)

/-- The result over the [4, 32, 4096, 128] array: entry (a, b, c, q) against the row (a, b, c, ·). -/
def G (x : (⟨4, ![4, 32, 4096, 128]⟩ : Shape).Idx → EReal) : (⟨4, ![4, 32, 4096, 128]⟩ : Shape).Idx → EReal :=
  fun i => qd (fun k : Fin 128 => x (ix4 (i 0 : Fin 4) (i 1 : Fin 32) (i 2 : Fin 4096) k)) (x i)

theorem G2_ix2 (A : (⟨2, ![524288, 128]⟩ : Shape).Idx → EReal) (r : Fin 524288) (q : Fin 128) :
    G2 A (ix2 r q) = qd (fun k : Fin 128 => A (ix2 r k)) (A (ix2 r q)) := rfl

theorem G_ix4 (x : (⟨4, ![4, 32, 4096, 128]⟩ : Shape).Idx → EReal) (a : Fin 4) (b : Fin 32) (c : Fin 4096) (q : Fin 128) :
    G x (ix4 a b c q) = qd (fun k : Fin 128 => x (ix4 a b c k)) (x (ix4 a b c q)) := rfl

/-- The kernel writes the negated minimum as `0 − min`; on the extended reals that is `−min`. -/
theorem zero_word_sub (y : EReal) : Ideal.ofBits .f32 0x00000000#32 - y = -y := by
  rw [Ideal.ofBits_zero_f32, zero_sub]

end Cert.Quant

end
-- ==== Proof.KernelRow.lean ====
/-
  The kernel's body on one [8192, 128] block, read entry by entry: the value stored at (p, q) is the
  quantize-dequantize `Cert.Quant.qd` of the loaded entry (p, q) against the loaded row p.

  The body takes the row maximum and minimum by lane reductions, which at the exact values are folds of max from −∞
  and of min from +∞ over the 128 columns; reshapes each [8192] column of results to [8192, 1]; computes the row's
  scale and zero point there; and broadcasts both back along the 128 columns. Each of those three layout steps
  reads one entry of its operand, named below at coordinates (p, q).
-/
import proofs.«122961_j76407468195935_1_alg».proof.Proof.Gen.KernelIdeal.Skeleton
import proofs.«122961_j76407468195935_1_alg».proof.Proof.Spec
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx Cert.Quant

/-- Inserting column k into the row index p gives the entry (p, k). -/
theorem lift_row (h : S8192x128.Reduces [1] S8192) (p : Fin 8192) (k : Fin 128) : h.lift (ix1 p) k = ix2 p k :=
  funext fun a => Fin.ext (by match a with | ⟨0, _⟩ => rfl | ⟨1, _⟩ => rfl)

/-- The lane maximum of row p is the fold of max from −∞ over the row's entries. -/
theorem rowmax_apply (v : FVec Ideal S8192x128 .f32) (h : S8192x128.Reduces [1] S8192) (hφ : FKind.Formats .f32)
    (hacc : (0xFF800000#32 : BitVec 32) = 0xFF800000#32) (p : Fin 8192) :
    multiReduction .maximumf [1] S8192 v 0xFF800000#32 h hφ hacc (ix1 p) = rowMax (fun k : Fin 128 => v (ix2 p k)) := by
  refine (Ideal.multiReduction_maximumf_single v _ h hφ hacc (ix1 p)).trans ?_
  show Finset.fold max (Ideal.ofBits .f32 0xFF800000#32) (fun k : Fin 128 => v (h.lift (ix1 p) k)) Finset.univ = _
  unfold rowMax
  exact congrArg (fun f : Fin 128 → EReal => Finset.fold max (Ideal.ofBits .f32 0xFF800000#32) f Finset.univ)
    (funext fun k => congrArg v (lift_row h p k))

/-- The lane minimum of row p is the fold of min from +∞ over the row's entries. -/
theorem rowmin_apply (v : FVec Ideal S8192x128 .f32) (h : S8192x128.Reduces [1] S8192) (hφ : FKind.Formats .f32)
    (hacc : (0x7F800000#32 : BitVec 32) = 0x7F800000#32) (p : Fin 8192) :
    multiReduction .minimumf [1] S8192 v 0x7F800000#32 h hφ hacc (ix1 p) = rowMin (fun k : Fin 128 => v (ix2 p k)) := by
  refine ((multiReduction_minimumf_eq_fold v _ h hφ hacc (ix1 p)).trans
    (h.fold_filter_drop_single FloatOps.minimumf _ v (ix1 p))).trans ?_
  show Finset.fold min (Ideal.ofBits .f32 0x7F800000#32) (fun k : Fin 128 => v (h.lift (ix1 p) k)) Finset.univ = _
  unfold rowMin
  exact congrArg (fun f : Fin 128 → EReal => Finset.fold min (Ideal.ofBits .f32 0x7F800000#32) f Finset.univ)
    (funext fun k => congrArg v (lift_row h p k))

/-- A vector of 8192 row results seen as an [8192, 1] column: entry (p, 0) is result p. -/
theorem col_apply (v : FVec Ideal S8192 .f32) (h : S8192.ShapeCasts S8192x1) (p : Fin 8192) (z : Fin 1) :
    shapeCast S8192x1 v h (ix2 p z) = v (ix1 p) :=
  shapeCast_apply v h (ix2 p z) (ix1 p) (by
    rw [Shape.rowMajor_val_one, Shape.rowMajor_val_two]
    have := z.isLt
    show p.val = p.val * 1 + z.val
    omega)

/-- An [8192, 1] column broadcast along the 128 columns: entry (p, q) is the column's entry (p, 0). -/
theorem bcol_apply (v : FVec Ideal S8192x1 .f32) (h : S8192x1.Broadcasts S8192x128) (p : Fin 8192) (q : Fin 128) :
    broadcastTo S8192x128 v h (ix2 p q) = v (ix2 p (0 : Fin 1)) :=
  broadcastTo_apply v h (ix2 p q) (ix2 p (0 : Fin 1)) (fun a => by match a with | ⟨0, _⟩ => rfl | ⟨1, _⟩ => rfl)

theorem roundeven_apply {s : Shape} (v : FVec Ideal s .f32) (i : s.Idx) :
    roundeven v i = Ideal.liftRound Ideal.roundHalfEven (v i) := rfl

/-! ## The body in steps

The same operations as the printed payload, grouped by what they compute: per row the maximum and minimum (each
times the clip ratio 1), the scale and the zero point, all as [8192, 1] columns; then the stored block. -/

/-- Column of row maxima, times the clip ratio. -/
def colMax (x1 : FVec Ideal S8192x128 .f32) : FVec Ideal S8192x1 .f32 :=
  mulf (shapeCast S8192x1 (multiReduction .maximumf [1] S8192 x1 0xFF800000#32 reduces_S8192x128_S8192 (.inl rfl) rfl)
      shapeCasts_S8192_S8192x1)
    (broadcast S8192x1 (Scalar.ofBits .f32 0x3F800000#32))

/-- Column of row minima, times the clip ratio. -/
def colMin (x1 : FVec Ideal S8192x128 .f32) : FVec Ideal S8192x1 .f32 :=
  mulf (shapeCast S8192x1 (multiReduction .minimumf [1] S8192 x1 0x7F800000#32 reduces_S8192x128_S8192 (.inl rfl) rfl)
      shapeCasts_S8192_S8192x1)
    (broadcast S8192x1 (Scalar.ofBits .f32 0x3F800000#32))

/-- Column of scales. -/
def colScale (x1 : FVec Ideal S8192x128 .f32) : FVec Ideal S8192x1 .f32 :=
  maximumf (divf (subf (colMax x1) (colMin x1)) (broadcast S8192x1 (Scalar.ofBits .f32 0x41700000#32)))
    (broadcast S8192x1 (Scalar.ofBits .f32 0x322BCC77#32))

/-- Column of zero points. -/
def colOff (x1 : FVec Ideal S8192x128 .f32) : FVec Ideal S8192x1 .f32 :=
  roundeven (divf (subf (broadcast S8192x1 (Scalar.ofBits .f32 0x00000000#32)) (colMin x1)) (colScale x1))

/-- The stored block from the loaded one and the two columns. -/
def store (x1 : FVec Ideal S8192x128 .f32) (sc off : FVec Ideal S8192x1 .f32) : FVec Ideal S8192x128 .f32 :=
  mulf (subf (minimumf (broadcast S8192x128 (Scalar.ofBits .f32 0x41700000#32))
        (maximumf (broadcast S8192x128 (Scalar.ofBits .f32 0x00000000#32))
          (addf (roundeven (divf x1 (broadcastTo S8192x128 sc broadcasts_S8192x1_S8192x128)))
            (broadcastTo S8192x128 off broadcasts_S8192x1_S8192x128))))
      (broadcastTo S8192x128 off broadcasts_S8192x1_S8192x128))
    (broadcastTo S8192x128 sc broadcasts_S8192x1_S8192x128)

/-- The printed payload is these steps composed. -/
theorem pay_eq (x0 : Vec Ideal S8192x128 .f32) :
    k0_pay1 x0 = store (shapeCast S8192x128 x0 shapeCasts_S8192x128_S8192x128)
      (colScale (shapeCast S8192x128 x0 shapeCasts_S8192x128_S8192x128))
      (colOff (shapeCast S8192x128 x0 shapeCasts_S8192x128_S8192x128)) := rfl

/-! ## Each step read at an entry

Every step below moves the index inward by rewriting with a lemma stated over variables; the reductions are never
unfolded. -/

/-- A scalar constant of the body is the f32 word's exact value. -/
theorem scalar_ofBits (w : BitVec 32) : (Scalar.ofBits .f32 w : Ideal .f32) = Ideal.ofBits .f32 w := rfl

theorem colMax_apply (x1 : FVec Ideal S8192x128 .f32) (p : Fin 8192) :
    colMax x1 (ix2 p (0 : Fin 1)) = rowMax (fun k : Fin 128 => x1 (ix2 p k)) * Ideal.ofBits .f32 0x3F800000#32 := by
  unfold colMax
  rw [mulf_apply, col_apply, rowmax_apply, broadcast_apply, scalar_ofBits]

theorem colMin_apply (x1 : FVec Ideal S8192x128 .f32) (p : Fin 8192) :
    colMin x1 (ix2 p (0 : Fin 1)) = rowMin (fun k : Fin 128 => x1 (ix2 p k)) * Ideal.ofBits .f32 0x3F800000#32 := by
  unfold colMin
  rw [mulf_apply, col_apply, rowmin_apply, broadcast_apply, scalar_ofBits]

theorem colScale_apply (x1 : FVec Ideal S8192x128 .f32) (p : Fin 8192) :
    colScale x1 (ix2 p (0 : Fin 1)) = scale (fun k : Fin 128 => x1 (ix2 p k)) := by
  unfold colScale scale
  rw [maximumf_apply, divf_apply, subf_apply, colMax_apply, colMin_apply, broadcast_apply, broadcast_apply, scalar_ofBits,
    scalar_ofBits]

theorem colOff_apply (x1 : FVec Ideal S8192x128 .f32) (p : Fin 8192) :
    colOff x1 (ix2 p (0 : Fin 1)) = offset (fun k : Fin 128 => x1 (ix2 p k)) := by
  unfold colOff offset
  rw [roundeven_apply, divf_apply, subf_apply, broadcast_apply, scalar_ofBits, colMin_apply, colScale_apply, zero_word_sub]

theorem store_apply (x1 : FVec Ideal S8192x128 .f32) (sc off : FVec Ideal S8192x1 .f32) (p : Fin 8192) (q : Fin 128) :
    store x1 sc off (ix2 p q)
      = (min (Ideal.ofBits .f32 0x41700000#32)
          (max (Ideal.ofBits .f32 0x00000000#32)
            (Ideal.liftRound Ideal.roundHalfEven (Ideal.div (x1 (ix2 p q)) (sc (ix2 p (0 : Fin 1)))) + off (ix2 p (0 : Fin 1))))
        - off (ix2 p (0 : Fin 1))) * sc (ix2 p (0 : Fin 1)) := by
  unfold store
  simp only [mulf_apply, subf_apply, minimumf_apply, maximumf_apply, addf_apply, roundeven_apply, divf_apply,
    broadcast_apply, scalar_ofBits, bcol_apply]

/-- The stored value at (p, q) is the loaded entry (p, q) quantized against the loaded row p and dequantized. -/
theorem pay_apply (x0 : Vec Ideal S8192x128 .f32) (p : Fin 8192) (q : Fin 128) :
    k0_pay1 x0 (ix2 p q) = qd (fun k : Fin 128 => x0 (ix2 p k)) (x0 (ix2 p q)) := by
  rw [pay_eq, store_apply, colScale_apply, colOff_apply, shapeCast_self]
  unfold qd
  rfl

end Cert.KernelIdeal.Row

end
-- ==== Proof.Reshape.lean ====
/-
  The two reshapes around the region move no entry. The argument [4, 32, 4096, 128] is viewed as [524288, 128] before
  the region and the region's [524288, 128] result is viewed as [4, 32, 4096, 128] after it; entry (a, b, c, q) of the
  four-axis array and entry ((a·32 + b)·4096 + c, q) of the two-axis view sit at the same row-major position
  ((a·32 + b)·4096 + c)·128 + q. So a row of the view is a row (a, b, c, ·) of the array, and the row-wise function of
  the view, reshaped back, is the row-wise function of the array.
-/
import proofs.«122961_j76407468195935_1_alg».proof.Proof.Spec
import Idealize.ShloMosaic.Lib.Pipeline.Value
import Idealize.ShloMosaic.Lib.ValueIdx

noncomputable section

namespace Cert.Quant

open Idealize.ShloMosaic Idealize.ShloMosaic.ValueIdx

/-- The view's entry (r, k), r the row number of (a, b, c), is the array's entry (a, b, c, k). -/
theorem view_apply (x : (⟨4, ![4, 32, 4096, 128]⟩ : Shape).Idx → EReal)
    (h1 : (⟨4, ![4, 32, 4096, 128]⟩ : Shape).ShapeCasts ⟨2, ![524288, 128]⟩)
    (a : Fin 4) (b : Fin 32) (c : Fin 4096) (r : Fin 524288) (hr : r.val = (a.val * 32 + b.val) * 4096 + c.val) (k : Fin 128) :
    shapeCast ⟨2, ![524288, 128]⟩ x h1 (ix2 r k) = x (ix4 a b c k) :=
  shapeCast_apply x h1 (ix2 r k) (ix4 a b c k) (by
    rw [Shape.rowMajor_val_two, Shape.rowMajor_val_four]
    show ((a.val * 32 + b.val) * 4096 + c.val) * 128 + k.val = r.val * 128 + k.val
    rw [hr])

/-- Row-wise quantize-dequantize commutes with the two reshapes. -/
theorem reshape_G (x : (⟨4, ![4, 32, 4096, 128]⟩ : Shape).Idx → EReal)
    (h1 : (⟨4, ![4, 32, 4096, 128]⟩ : Shape).ShapeCasts ⟨2, ![524288, 128]⟩)
    (h2 : (⟨2, ![524288, 128]⟩ : Shape).ShapeCasts ⟨4, ![4, 32, 4096, 128]⟩) :
    shapeCast ⟨4, ![4, 32, 4096, 128]⟩ (G2 (shapeCast ⟨2, ![524288, 128]⟩ x h1)) h2 = G x := by
  funext i
  obtain ⟨a, b, c, q, rfl⟩ : ∃ (a : Fin 4) (b : Fin 32) (c : Fin 4096) (q : Fin 128), i = ix4 a b c q :=
    ⟨i 0, i 1, i 2, i 3, eq_ix4 i⟩
  have ha := a.isLt
  have hb := b.isLt
  have hc := c.isLt
  obtain ⟨r, hr⟩ : ∃ r : Fin 524288, r.val = (a.val * 32 + b.val) * 4096 + c.val :=
    ⟨⟨(a.val * 32 + b.val) * 4096 + c.val, by omega⟩, rfl⟩
  rw [shapeCast_apply (G2 (shapeCast ⟨2, ![524288, 128]⟩ x h1)) h2 (ix4 a b c q) (ix2 r q) (by
    rw [Shape.rowMajor_val_two, Shape.rowMajor_val_four]
    show r.val * 128 + q.val = ((a.val * 32 + b.val) * 4096 + c.val) * 128 + q.val
    rw [hr])]
  rw [G2_ix2, G_ix4]
  have hrow : (fun k : Fin 128 => shapeCast ⟨2, ![524288, 128]⟩ x h1 (ix2 r k)) = fun k : Fin 128 => x (ix4 a b c k) :=
    funext fun k => view_apply x h1 a b c r hr k
  rw [hrow, view_apply x h1 a b c r hr q]

end Cert.Quant

end
-- ==== Proof.KernelValue.lean ====
/-
  What the kernel's program leaves in its result array, as one function of its argument array.

  The program reshapes the argument to a [524288, 128] view, runs the body over 64 blocks of 8192 rows, and reshapes
  the region's [524288, 128] result back. Block t of either window is rows t·8192 … t·8192 + 8191, all 128 columns, so
  the body at point t reads and writes the same rectangle, and every row lies in exactly the block numbered by its
  quotient by 8192. Since the body treats each row by itself, what point t writes back is block t of ONE function of the
  view: every entry quantized against its own row. The blocks cover the array, so the region's result is that function
  of the view; and the two reshapes move no entry.
-/
import proofs.«122961_j76407468195935_1_alg».proof.Proof.Gen.KernelIdeal.Frame
import proofs.«122961_j76407468195935_1_alg».proof.Proof.KernelRow
import proofs.«122961_j76407468195935_1_alg».proof.Proof.Reshape
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.Quant
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Both windows' block at point t is block row t, block column 0 (decided over the 64 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The body's stored block, when the loaded block is rows t·8192 … of an array A and is written back to the same
    rows: each stored entry is A's entry quantized against A's row. -/
theorem pay_read (x0 : Vec Ideal S8192x128 .f32) (A : S524288x128.Idx → EReal) (e0 e1 : S8192x128.Idx → S524288x128.Idx)
    (t : Nat) (hx : ∀ y, x0 y = A (e0 y))
    (h00 : ∀ y, (e0 y 0).val = t * 8192 + (y 0).val) (h01 : ∀ y, (e0 y 1).val = (y 1).val)
    (h10 : ∀ y, (e1 y 0).val = t * 8192 + (y 0).val) (h11 : ∀ y, (e1 y 1).val = (y 1).val) (j : S8192x128.Idx) :
    k0_pay1 x0 j = G2 A (e1 j) := by
  obtain ⟨p, q, rfl⟩ : ∃ (p : Fin 8192) (q : Fin 128), j = ix2 p q := ⟨j 0, j 1, eq_ix2 j⟩
  obtain ⟨r, hr⟩ : ∃ r : Fin 524288, r.val = t * 8192 + p.val := ⟨e1 (ix2 p q) 0, h10 (ix2 p q)⟩
  have he1 : e1 (ix2 p q) = ix2 r q := funext fun a => Fin.ext (by
    match a with
    | ⟨0, _⟩ => exact (h10 (ix2 p q)).trans hr.symm
    | ⟨1, _⟩ => exact h11 (ix2 p q))
  have hrow : ∀ k : Fin 128, e0 (ix2 p k) = ix2 r k := fun k => funext fun a => Fin.ext (by
    match a with
    | ⟨0, _⟩ => exact (h00 (ix2 p k)).trans hr.symm
    | ⟨1, _⟩ => exact h01 (ix2 p k))
  have hrowf : (fun k : Fin 128 => x0 (ix2 p k)) = fun k : Fin 128 => A (ix2 r k) :=
    funext fun k => by rw [hx, hrow]
  rw [he1, G2_ix2, Row.pay_apply, hrowf, hx, hrow q]

/-- Point t writes back block t of the row-wise function of the view as the region finds it: the body's stored
    block, read where the output window's rectangle at t lies, which is where the input window's lies. -/
theorem flushed_eq (c : Dev nD) (t : Fin cfg0.N) :
    (dats m 0 c).flushed 1 t = ((cfg0.win 1).blk t).view.read (Elt Ideal) (G2 (V m c main_v0)) := by
  show (cfg0.win 1).cut (grid0.coords t) ((dats m 0 c).after 1 t) = _
  rw [after0_1]
  unfold out0_1
  rw [View.canon_unit_zero hz]
  simp only [View.ld_unit_zero (S := S8192x128) hz]
  obtain ⟨e0, e1, e2, e3⟩ := idx_facts t
  funext j
  exact pay_read (iblk m c 0 t) (V m c main_v0) (fun y => ((cfg0.win 0).blk t).view.emb y)
    (fun y => ((cfg0.win 1).blk t).view.emb y) t.val (fun _ => rfl)
    (fun y => by show win0_0.index t (0 : Fin 2) * 8192 + 1 * (y 0).val = _; rw [e0]; omega)
    (fun y => by show win0_0.index t (1 : Fin 2) * 128 + 1 * (y 1).val = _; rw [e1]; omega)
    (fun y => by show win0_1.index t (0 : Fin 2) * 8192 + 1 * (y 0).val = _; rw [e2]; omega)
    (fun y => by show win0_1.index t (1 : Fin 2) * 128 + 1 * (y 1).val = _; rw [e3]; omega) j

/-- An index of the result view is in point t's block iff each coordinate is in the block's range on its axis. -/
theorem mem_blk (t : Fin cfg0.N) (i : S524288x128.Idx) :
    i ∈ ((cfg0.win 1).blk t).view.set ↔ ∀ a : Fin 2, win0_1.index t a * S8192x128.size a ≤ (i a).val
      ∧ (i a).val < win0_1.index t a * S8192x128.size a + S8192x128.size a := by
  show i ∈ ((View.whole main_v1).slice (win0_1.rect t)).set ↔ _
  rw [View.set_slice_whole, Rect.mem_set_unit]
  exact Iff.rfl

/-- Every row lies in the block numbered by its quotient by 8192. -/
theorem cover (i : S524288x128.Idx) :
    ∃ t : Fin cfg0.N, (cfg0.win 1).flush t = true ∧ i ∈ ((cfg0.win 1).blk t).view.set := by
  have hi0 : (i 0).val < 524288 := (i 0).isLt
  have hi1 : (i 1).val < 128 := (i 1).isLt
  have hN : cfg0.N = 64 := N_0
  obtain ⟨t, ht⟩ : ∃ t : Fin cfg0.N, t.val = (i 0).val / 8192 :=
    ⟨⟨(i 0).val / 8192, lt_of_lt_of_eq (by omega : (i 0).val / 8192 < 64) hN.symm⟩, rfl⟩
  obtain ⟨-, -, e2, e3⟩ := idx_facts t
  refine ⟨t, flush0_1 t, ?_⟩
  rw [mem_blk]
  intro a
  match a with
  | ⟨0, _⟩ =>
    show win0_1.index t (0 : Fin 2) * 8192 ≤ (i 0).val ∧ (i 0).val < win0_1.index t (0 : Fin 2) * 8192 + 8192
    rw [e2, ht]; omega
  | ⟨1, _⟩ =>
    show win0_1.index t (1 : Fin 2) * 128 ≤ (i 1).val ∧ (i 1).val < win0_1.index t (1 : Fin 2) * 128 + 128
    rw [e3]; omega

/-- After the run the region's result array is the row-wise function of the view: each point wrote its block of that
    function, and the 64 blocks cover the array. -/
theorem final (c : Dev nD) : (dats m 0 c).arrAt 1 cfg0.N = G2 (V m c main_v0) :=
  (dats m 0 c).arrAt_eq_of_cover 1 (G2 (V m c main_v0)) (fun t _ => flushed_eq m c t) cover

/-- The view the region finds is the argument reshaped. -/
theorem entry (c : Dev nD) : (V m c main_v0 : S524288x128.Idx → EReal)
    = shapeCast S524288x128 (m ((c.tc : Thread nD τ).loc main_arg0)) shapeCasts_S4x32x4096x128_S524288x128 := by
  show StableHlo.after hostOps0 (fun b => m (c, b)) (Proc.devRef .tc main_v0) = _
  after_results
  rfl

/-- After the frame run, the program's result is the region's result array reshaped. -/
theorem result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v2)
      = shapeCast S4x32x4096x128 (G2 (V m c main_v0)) shapeCasts_S524288x128_S4x32x4096x128 := by
  refine ((h c).2 main_v2 (Pipeline.mem_restRefs_of main_v2 (by decide) (by decide))).trans ?_
  unfold Pipeline.afterTail₀
  show StableHlo.after hostOps1 _ (Proc.devRef .tc main_v2) = _
  after_results
  have hW : Pipeline.withArrays (cfgs 0).spec c (V0 m c) (fun w => (dats m 0 c).arrAt w (cfgs 0).N)
      (Proc.devRef .tc main_v1) = G2 (V m c main_v0) :=
    (Pipeline.withArrays_arr spec0 launch0.win.arr_inj c _ _ 1).trans (final m c)
  rw [hW]
  rfl

/-- The kernel's program, run: its result array ends at the row-wise quantize-dequantize of its argument, and the
    argument is unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun r h c =>
      ⟨(result m r h c).trans (by rw [entry]; exact reshape_G _ _ _),
        ((h c).2 main_arg0 (Pipeline.mem_restRefs_of main_arg0 (by decide) (by decide))).trans (W_main_arg0 m (dats m) c)⟩)
    (run_main m ρ)

end Cert.KernelIdeal.KValue

end
-- ==== Proof.RefRow.lean ====
/-
  The reference, read entry by entry: its result at (a, b, c, q) is the quantize-dequantize `Cert.Quant.qd` of the
  argument's entry (a, b, c, q) against the argument's row (a, b, c, ·).

  The reference views the argument as [4, 32, 4096, 1, 128] (one group per row), reduces maximum and minimum over the
  last axis, and carries scale and zero point as [4, 32, 4096, 1, 1] arrays that it broadcasts back over the 128
  columns. The reshapes move no entry: (a, b, c, q) of the argument is (a, b, c, 0, q) of the view, and both are
  position ((a·32 + b)·4096 + c)·128 + q in row-major order. The two reductions are, at the exact values, folds of max
  from −∞ and of min from +∞ over the column coordinate.
-/
import proofs.«122961_j76407468195935_1_alg».proof.Proof.Gen.ReferenceIdeal.Read
import proofs.«122961_j76407468195935_1_alg».proof.Proof.Spec
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx
open Cert.Quant

/-! ## Where each layout step reads -/

/-- The result's entry (a, b, c, q) is the five-axis product's entry (a, b, c, 0, q). -/
theorem idx27 (a : Fin 4) (b : Fin 32) (c : Fin 4096) (q : Fin 128) :
    idx_main_v27 (ix4 a b c q) = ix5 a b c (0 : Fin 1) q :=
  funext fun d => Fin.ext (by
    have := a.isLt; have := b.isLt; have := c.isLt; have := q.isLt
    match d with
    | ⟨0, _⟩ => show (((a.val * 32 + b.val) * 4096 + c.val) * 128 + q.val) / 16777216 = a.val; omega
    | ⟨1, _⟩ => show (((a.val * 32 + b.val) * 4096 + c.val) * 128 + q.val) / 524288 % 32 = b.val; omega
    | ⟨2, _⟩ => show (((a.val * 32 + b.val) * 4096 + c.val) * 128 + q.val) / 128 % 4096 = c.val; omega
    | ⟨3, _⟩ => rfl
    | ⟨4, _⟩ => show (((a.val * 32 + b.val) * 4096 + c.val) * 128 + q.val) % 128 = q.val; omega)

/-- The five-axis view's entry (a, b, c, z, k) is the argument's entry (a, b, c, k). -/
theorem idx0 (a : Fin 4) (b : Fin 32) (c : Fin 4096) (z : Fin 1) (k : Fin 128) :
    idx_main_v0 (ix5 a b c z k) = ix4 a b c k :=
  funext fun d => Fin.ext (by
    have := a.isLt; have := b.isLt; have := c.isLt; have := z.isLt; have := k.isLt
    match d with
    | ⟨0, _⟩ => show ((((a.val * 32 + b.val) * 4096 + c.val) * 1 + z.val) * 128 + k.val) / 16777216 = a.val; omega
    | ⟨1, _⟩ => show ((((a.val * 32 + b.val) * 4096 + c.val) * 1 + z.val) * 128 + k.val) / 524288 % 32 = b.val; omega
    | ⟨2, _⟩ => show ((((a.val * 32 + b.val) * 4096 + c.val) * 1 + z.val) * 128 + k.val) / 128 % 4096 = c.val; omega
    | ⟨3, _⟩ => show ((((a.val * 32 + b.val) * 4096 + c.val) * 1 + z.val) * 128 + k.val) % 128 = k.val; omega)

/-- A per-row [4, 32, 4096, 1, 1] array broadcast over the columns is read at the row's own entry. -/
theorem idx17 (a : Fin 4) (b : Fin 32) (c : Fin 4096) (z : Fin 1) (q : Fin 128) :
    idx_main_v17 (ix5 a b c z q) = ix5 a b c (0 : Fin 1) (0 : Fin 1) :=
  funext fun d => Fin.ext (by match d with | ⟨0, _⟩ => rfl | ⟨1, _⟩ => rfl | ⟨2, _⟩ => rfl | ⟨3, _⟩ => rfl | ⟨4, _⟩ => rfl)
theorem idx20 (a : Fin 4) (b : Fin 32) (c : Fin 4096) (z : Fin 1) (q : Fin 128) :
    idx_main_v20 (ix5 a b c z q) = ix5 a b c (0 : Fin 1) (0 : Fin 1) :=
  funext fun d => Fin.ext (by match d with | ⟨0, _⟩ => rfl | ⟨1, _⟩ => rfl | ⟨2, _⟩ => rfl | ⟨3, _⟩ => rfl | ⟨4, _⟩ => rfl)
theorem idx23 (a : Fin 4) (b : Fin 32) (c : Fin 4096) (z : Fin 1) (q : Fin 128) :
    idx_main_v23 (ix5 a b c z q) = ix5 a b c (0 : Fin 1) (0 : Fin 1) :=
  funext fun d => Fin.ext (by match d with | ⟨0, _⟩ => rfl | ⟨1, _⟩ => rfl | ⟨2, _⟩ => rfl | ⟨3, _⟩ => rfl | ⟨4, _⟩ => rfl)
theorem idx25 (a : Fin 4) (b : Fin 32) (c : Fin 4096) (z : Fin 1) (q : Fin 128) :
    idx_main_v25 (ix5 a b c z q) = ix5 a b c (0 : Fin 1) (0 : Fin 1) :=
  funext fun d => Fin.ext (by match d with | ⟨0, _⟩ => rfl | ⟨1, _⟩ => rfl | ⟨2, _⟩ => rfl | ⟨3, _⟩ => rfl | ⟨4, _⟩ => rfl)

/-- A reduced [4, 32, 4096, 1] array seen as [4, 32, 4096, 1, 1] is read at the row's entry. -/
theorem idx2 (a : Fin 4) (b : Fin 32) (c : Fin 4096) (z z' : Fin 1) :
    idx_main_v2 (ix5 a b c z z') = ix4 a b c (0 : Fin 1) :=
  funext fun d => Fin.ext (by match d with | ⟨0, _⟩ => rfl | ⟨1, _⟩ => rfl | ⟨2, _⟩ => rfl | ⟨3, _⟩ => rfl)
theorem idx6 (a : Fin 4) (b : Fin 32) (c : Fin 4096) (z z' : Fin 1) :
    idx_main_v6 (ix5 a b c z z') = ix4 a b c (0 : Fin 1) :=
  funext fun d => Fin.ext (by match d with | ⟨0, _⟩ => rfl | ⟨1, _⟩ => rfl | ⟨2, _⟩ => rfl | ⟨3, _⟩ => rfl)

/-! ## The two reductions -/

/-- The reduction drops the last of the five axes. -/
theorem hR : S4x32x4096x1x128.Reduces [4] S4x32x4096x1 := by decide

/-- Inserting column k into the reduced index (a, b, c, 0) gives the view's entry (a, b, c, 0, k). -/
theorem lift5 (a : Fin 4) (b : Fin 32) (c : Fin 4096) (k : Fin 128) :
    hR.lift (ix4 a b c (0 : Fin 1)) k = ix5 a b c (0 : Fin 1) k :=
  funext fun d => Fin.ext (by match d with | ⟨0, _⟩ => rfl | ⟨1, _⟩ => rfl | ⟨2, _⟩ => rfl | ⟨3, _⟩ => rfl | ⟨4, _⟩ => rfl)

theorem v1_eq (x : (⟨S4x32x4096x128, .f32⟩ : BufTy).Contents (Elt Ideal)) (a : Fin 4) (b : Fin 32) (c : Fin 4096) :
    val_main_v1 (F := Ideal) x (ix4 a b c (0 : Fin 1)) = rowMax (fun k : Fin 128 => x (ix4 a b c k)) := by
  unfold val_main_v1
  refine (Host.reduce_eq_fold_single (α := Ideal .f32) (FloatOps.maximumf (F := Ideal) (φ := .f32)) (val_main_v0 (F := Ideal) x) (val_main_cst (F := Ideal))
    reducesTo_S4x32x4096x1x128_S4x32x4096x1_d4 hR h_S_ (ix4 a b c (0 : Fin 1))).trans ?_
  show Finset.fold max (Ideal.ofBits .f32 0xFF800000#32)
      (fun k : Fin 128 => val_main_v0 (F := Ideal) x (hR.lift (ix4 a b c (0 : Fin 1)) k)) Finset.univ = _
  unfold rowMax
  refine congrArg (fun f : Fin 128 → EReal => Finset.fold max (Ideal.ofBits .f32 0xFF800000#32) f Finset.univ)
    (funext fun k => ?_)
  rw [lift5, val_main_v0_apply, idx0]

theorem v5_eq (x : (⟨S4x32x4096x128, .f32⟩ : BufTy).Contents (Elt Ideal)) (a : Fin 4) (b : Fin 32) (c : Fin 4096) :
    val_main_v5 (F := Ideal) x (ix4 a b c (0 : Fin 1)) = rowMin (fun k : Fin 128 => x (ix4 a b c k)) := by
  unfold val_main_v5
  refine (Host.reduce_eq_fold_single (α := Ideal .f32) (FloatOps.minimumf (F := Ideal) (φ := .f32)) (val_main_v0 (F := Ideal) x) (val_main_cst_1 (F := Ideal))
    reducesTo_S4x32x4096x1x128_S4x32x4096x1_d4 hR h_S_ (ix4 a b c (0 : Fin 1))).trans ?_
  show Finset.fold min (Ideal.ofBits .f32 0x7F800000#32)
      (fun k : Fin 128 => val_main_v0 (F := Ideal) x (hR.lift (ix4 a b c (0 : Fin 1)) k)) Finset.univ = _
  unfold rowMin
  refine congrArg (fun f : Fin 128 → EReal => Finset.fold min (Ideal.ofBits .f32 0x7F800000#32) f Finset.univ)
    (funext fun k => ?_)
  rw [lift5, val_main_v0_apply, idx0]

/-! ## The per-row quantities -/

/-- The reference's scalar constants, at the exact values. -/
theorem cst0 (i : S_.Idx) : val_main_cst_0 (F := Ideal) i = Ideal.ofBits .f32 0x3F800000#32 := rfl
theorem cst2 (i : S_.Idx) : val_main_cst_2 (F := Ideal) i = Ideal.ofBits .f32 0x3F800000#32 := rfl
theorem cst3 (i : S_.Idx) : val_main_cst_3 (F := Ideal) i = Ideal.ofBits .f32 0x41700000#32 := rfl
theorem cst4 (i : S_.Idx) : val_main_cst_4 (F := Ideal) i = Ideal.ofBits .f32 0x322BCC77#32 := rfl
theorem cst5 (i : S_.Idx) : val_main_cst_5 (F := Ideal) i = Ideal.ofBits .f32 0x00000000#32 := rfl
theorem cst6 (i : S_.Idx) : val_main_cst_6 (F := Ideal) i = Ideal.ofBits .f32 0x41700000#32 := rfl

theorem v4_eq (x : (⟨S4x32x4096x128, .f32⟩ : BufTy).Contents (Elt Ideal)) (a : Fin 4) (b : Fin 32) (c : Fin 4096) :
    val_main_v4 (F := Ideal) x (ix5 a b c (0 : Fin 1) (0 : Fin 1))
      = rowMax (fun k : Fin 128 => x (ix4 a b c k)) * Ideal.ofBits .f32 0x3F800000#32 := by
  rw [val_main_v4_apply, val_main_v2_apply, idx2, v1_eq, val_main_v3_apply, cst0, Ideal.mulf_def]

theorem v8_eq (x : (⟨S4x32x4096x128, .f32⟩ : BufTy).Contents (Elt Ideal)) (a : Fin 4) (b : Fin 32) (c : Fin 4096) :
    val_main_v8 (F := Ideal) x (ix5 a b c (0 : Fin 1) (0 : Fin 1))
      = rowMin (fun k : Fin 128 => x (ix4 a b c k)) * Ideal.ofBits .f32 0x3F800000#32 := by
  rw [val_main_v8_apply, val_main_v6_apply, idx6, v5_eq, val_main_v7_apply, cst2, Ideal.mulf_def]

theorem v13_eq (x : (⟨S4x32x4096x128, .f32⟩ : BufTy).Contents (Elt Ideal)) (a : Fin 4) (b : Fin 32) (c : Fin 4096) :
    val_main_v13 (F := Ideal) x (ix5 a b c (0 : Fin 1) (0 : Fin 1)) = scale (fun k : Fin 128 => x (ix4 a b c k)) := by
  unfold scale
  rw [val_main_v13_apply, val_main_v11_apply, val_main_v9_apply, v4_eq, v8_eq, val_main_v10_apply, cst3,
    val_main_v12_apply, cst4, Ideal.maximumf_def, Ideal.hostDivf_def, Ideal.subf_def]

theorem v16_eq (x : (⟨S4x32x4096x128, .f32⟩ : BufTy).Contents (Elt Ideal)) (a : Fin 4) (b : Fin 32) (c : Fin 4096) :
    val_main_v16 (F := Ideal) x (ix5 a b c (0 : Fin 1) (0 : Fin 1)) = offset (fun k : Fin 128 => x (ix4 a b c k)) := by
  unfold offset
  rw [val_main_v16_apply, val_main_v15_apply, val_main_v14_apply, v8_eq, v13_eq, Ideal.hostUnary_roundeven_def,
    Ideal.hostDivf_def, Ideal.hostNegf_def, Ideal.negf_def]

/-! ## The result -/

theorem ref_apply (x : (⟨S4x32x4096x128, .f32⟩ : BufTy).Contents (Elt Ideal)) (a : Fin 4) (b : Fin 32) (c : Fin 4096) (q : Fin 128) :
    val_main_v27 (F := Ideal) x (ix4 a b c q) = qd (fun k : Fin 128 => x (ix4 a b c k)) (x (ix4 a b c q)) := by
  unfold qd
  rw [val_main_v27_apply, idx27, val_main_v26_apply, val_main_v24_apply, val_main_v25_apply, idx25,
    val_main_v23_apply, idx23, val_main_v22_apply, val_main_call2_v4_apply, val_main_call2_v3_apply, cst6,
    val_main_call2_v2_apply, val_main_call2_v1_apply, val_main_call2_v0_apply, cst5,
    val_main_v21_apply, val_main_v20_apply, idx20, val_main_v19_apply, val_main_v18_apply, val_main_v17_apply, idx17,
    val_main_v0_apply, idx0, v13_eq, v16_eq,
    Ideal.mulf_def, Ideal.subf_def, Ideal.minimumf_def, Ideal.maximumf_def, Ideal.addf_def,
    Ideal.hostUnary_roundeven_def, Ideal.hostDivf_def]

/-- The reference's result, as a whole array, is the specification of its argument. -/
theorem ref_eq (x : (⟨S4x32x4096x128, .f32⟩ : BufTy).Contents (Elt Ideal)) : val_main_v27 (F := Ideal) x = G x := by
  funext i
  obtain ⟨a, b, c, q, rfl⟩ : ∃ (a : Fin 4) (b : Fin 32) (c : Fin 4096) (q : Fin 128), i = ix4 a b c q :=
    ⟨i 0, i 1, i 2, i 3, eq_ix4 i⟩
  rw [G_ix4]
  exact ref_apply x a b c q

end Cert.ReferenceIdeal.Row

end
-- ==== Proof.lean ====
/-
  Groupwise 4-bit quantize-dequantize of a [4, 32, 4096, 128] array, one group per row of 128: a kernel that streams
  the [524288, 128] view through 64 blocks of 8192 rows, against the reference that reduces over the last axis of the
  [4, 32, 4096, 1, 128] view. On the extended reals the two programs compute ONE function of the argument:

      out(a, b, c, q) = (min (15, max (0, round (x(a,b,c,q) / s) + z)) − z) · s,
      s = max ((max_k x(a,b,c,k) · 1 − min_k x(a,b,c,k) · 1) / 15, ε),      z = round (−(min_k x(a,b,c,k) · 1) / s),

  with the maximum folded from −∞, the minimum from +∞, and rounding to nearest with ties to even
  (`Cert.Quant.G`, Proof/Spec.lean). The same f32 words for 1, 15, ε and 0 stand on both sides and are never evaluated.
  The only textual difference is the negated minimum, `0 − min` in the kernel and `−min` in the reference, equal on every
  extended real; no step uses distributivity or cancellation, so the inputs' finiteness is never used.

  The kernel side (Proof/KernelRow.lean, Proof/KernelValue.lean): the body's stored entry (p, q) is the loaded entry
  quantized against the loaded row p; block t of both windows is rows t·8192 … t·8192 + 8191, so each point writes back
  a block of one row-wise function of the view; the blocks cover the view; the reshapes before and after the region move
  no entry (Proof/Reshape.lean). The reference side (Proof/RefRow.lean): its stages chained at an entry, the two
  reductions read as folds over the 128 columns. The frames are the generated ones; the kernel's idealization rewrote
  nothing, so that claim is trivial.
-/
import proofs.«122961_j76407468195935_1_alg».proof.Defs
import proofs.«122961_j76407468195935_1_alg».proof.Proof.Gen.Kernel
import proofs.«122961_j76407468195935_1_alg».proof.Proof.Gen.Kernel.Frame
import proofs.«122961_j76407468195935_1_alg».proof.Proof.Gen.KernelIdeal
import proofs.«122961_j76407468195935_1_alg».proof.Proof.Gen.KernelIdeal.Frame
import proofs.«122961_j76407468195935_1_alg».proof.Proof.Gen.ReferenceIdeal
import proofs.«122961_j76407468195935_1_alg».proof.Proof.Gen.ReferenceIdeal.Run
import proofs.«122961_j76407468195935_1_alg».proof.Proof.Gen.ReferenceIdeal.Read
import proofs.«122961_j76407468195935_1_alg».proof.Proof.Gen.Pre_finite_inputs
import proofs.«122961_j76407468195935_1_alg».proof.Proof.KernelValue
import proofs.«122961_j76407468195935_1_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the row-wise quantize-dequantize of the argument; the arguments agree. -/
theorem algebraic : Cert.algebraic_KernelIdeal_ReferenceIdeal := by
  intro m ρ m' ρ' _ hagree
  refine ⟨fun c => Cert.Quant.G (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.ReferenceIdeal.Row.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
